-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S33554432 : Shape := ⟨1, ![33554432]⟩
abbrev S_ : Shape := ⟨0, ![]⟩

class Facts : Prop where
  bcast_S_S33554432 : S_.BroadcastsInDim S33554432 (![] : Fin 0 → Fin S33554432.rank)
  reducesTo_S33554432_S_d0 : S33554432.ReducesTo [0] S_
  h_S_ : 0 < S_.numel

variable [Facts]

def fn {F : FTy → Type} [FloatOps F] (main_arg0 : FVec F S33554432 .f32) (main_arg1 : FVec F S33554432 .f32) : IVec S_ 1 :=
  let main_v0 : FVec F S33554432 .f32 := Host.absf main_arg0
  let main_cst : FVec F S_ .f32 := constant S_ .f32 0x7F800000#32
  let main_v1 : FVec F S33554432 .f32 := broadcastInDim S33554432 ![] bcast_S_S33554432 main_cst
  let main_v2 : IVec S33554432 1 := cmpf .olt main_v0 main_v1
  let main_c : IVec S_ 1 := constantI S_ 1 1#1
  let main_v3 : IVec S_ 1 := (fun x v => Host.reduce IntOp.andi x v reducesTo_S33554432_S_d0 h_S_) main_v2 main_c
  let main_v4 : FVec F S33554432 .f32 := Host.absf main_arg1
  let main_cst_0 : FVec F S_ .f32 := constant S_ .f32 0x7F800000#32
  let main_v5 : FVec F S33554432 .f32 := broadcastInDim S33554432 ![] bcast_S_S33554432 main_cst_0
  let main_v6 : IVec S33554432 1 := cmpf .olt main_v4 main_v5
  let main_c_1 : IVec S_ 1 := constantI S_ 1 1#1
  let main_v7 : IVec S_ 1 := (fun x v => Host.reduce IntOp.andi x v reducesTo_S33554432_S_d0 h_S_) main_v6 main_c_1
  let main_v8 : IVec S_ 1 := andi main_v3 main_v7
  main_v8
-- ==== Kernel.lean ====
abbrev S33554432 : Shape := ⟨1, ![33554432]⟩
abbrev S262144x128 : Shape := ⟨2, ![262144, 128]⟩
abbrev S1x1 : Shape := ⟨2, ![1, 1]⟩
abbrev S4096x128 : Shape := ⟨2, ![4096, 128]⟩
abbrev S4096 : Shape := ⟨1, ![4096]⟩
abbrev S4096x1 : Shape := ⟨2, ![4096, 1]⟩
abbrev S1 : Shape := ⟨1, ![1]⟩
abbrev S_ : Shape := ⟨0, ![]⟩

abbrev nBuf : Space → Nat
  | .hbm => 10
  | .vmem => 5
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S262144x128, .f32⟩
  | .hbm, ⟨3, _⟩ => ⟨S262144x128, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S1x1, .f32⟩
  | _, _ => ⟨S33554432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  shapeCasts_S33554432_S262144x128 : S33554432.ShapeCasts S262144x128
  inb_S1x1_S1x1_0_0 : ∀ a, (![0, 0] : Fin 2 → Nat) a + S1x1.size a ≤ S1x1.size a
  h_S1x1 : 0 < S1x1.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  reduces_S4096x128_S4096 : S4096x128.Reduces [1] S4096
  shapeCasts_S4096_S4096x1 : S4096.ShapeCasts S4096x1
  reduces_S4096x1_S1 : S4096x1.Reduces [0] S1
  shapeCasts_S1_S1x1 : S1.ShapeCasts S1x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S262144x128.size a
  hwx0_1 : ∀ i : grid0.Coords, EltTy.bits .f32 = 32 ∨ (Rect.block (s := S262144x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_v0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S33554432 : Shape := ⟨1, ![33554432]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S33554432, .f32⟩
  | .hbm, ⟨1, _⟩ => ⟨S33554432, .f32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | _, _ => ⟨S33554432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  reducesTo_S33554432_S_d0 : S33554432.ReducesTo [0] S_
  h_S_ : 0 < S_.numel

variable [Facts₀]

class Facts : Prop extends Facts₀ where

variable [Facts]
-- ==== Proof.KernelCases.lean ====
/-
  What one grid step of the kernel leaves in the 1×1 output block, in each of its two control cases.

  At the first step the block is first set to zero, and then the step's partial sum is added to what was just
  stored: the block ends at the step function of the two input blocks and the zero block. At every later step
  the block holds the running value `acc` and ends at the same step function of the input blocks and `acc`.
  The step function reads the second input block twice (once in the difference, once as the divisor).
-/
import proofs.«118408_j386547057267_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Mape

open Cert.KernelIdeal Cert.KernelIdeal.Gen

variable {F : FTy → Type} [FloatOps F]

/-- The offsets of a whole-block access are all zero. -/
theorem offsets_zero : (![0, 0] : Fin 2 → Nat) = fun _ => 0 := funext fun a => by fin_cases a <;> rfl

/-- A later step: the block holding `acc` ends at the step function of the two input blocks and `acc`. -/
theorem later_step (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (hc : ¬cond0_0 i) (x0 x1 : Vec F S4096x128 .f32) (acc : Vec F S1x1 .f32) :
    out0_B_2 c i a1 h1 a2 h2 a3 h3 hc x0 x1 acc = k0_pay2 x0 x1 x1 acc := by
  unfold out0_B_2
  rw [View.read_writes_eq_canon _ _ _ (cover0_B_2 c i a1 h1 a2 h2 a3 h3 hc x0 x1 acc)]
  unfold kernelRun0_B
  dsimp only
  rw [View.canon_unit_zero offsets_zero]
  simp only [View.readAt_eq_ld, h1.read_unread, h2.read_unread, h3.read_unread,
    View.ld_unit_zero (S := S4096x128) offsets_zero, View.ld_unit_zero (S := S1x1) offsets_zero]

/-- The first step: the block is zeroed, read back, and ends at the step function of the input blocks and the zero block. -/
theorem first_step (c : Dev nD) (i : grid0.Coords) (a1 : Memref sig .tc .vmem S4096x128 .f32) (h1 : a1.IsWhole)
    (a2 : Memref sig .tc .vmem S4096x128 .f32) (h2 : a2.IsWhole) (a3 : Memref sig .tc .vmem S1x1 .f32) (h3 : a3.IsWhole)
    (hc : cond0_0 i) (x0 x1 : Vec F S4096x128 .f32) :
    out0_A_2 c i a1 h1 a2 h2 a3 h3 hc x0 x1 = k0_pay2 x0 x1 x1 k0_pay1 := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x1) offsets_zero, View.readCov_unit_zero (S := S1x1) _ offsets_zero]
  simp only [View.readAt_eq_ld, h1.read_unread, h2.read_unread, View.ld_unit_zero (S := S4096x128) offsets_zero]

end Cert.KernelIdeal.Mape

end
-- ==== Proof.LibSumBlocks.lean ====
/-
  Regrouping a finite sum into blocks.

  A sum over the positions `0 … a·b·c − 1` of a function of the position is the triple sum over a block number
  `t < a`, a row `r < b` inside the block and a lane `l < c` inside the row, of the function at the position
  `(b·t + r)·c + l` — the row-major position of `(t, r, l)`. It holds in every commutative additive monoid, the
  extended reals included: only associativity and commutativity of the addition are used. Also: a sum over the
  indices of a rank-1 array is the sum over its one coordinate.
-/
import Idealize.ShloMosaic.Lib.ValueIdx

open scoped BigOperators

namespace Cert.Lib.SumBlocks

open Idealize.ShloMosaic Idealize.ShloMosaic.ValueIdx

/-- A sum over the positions below `m·n` is the double sum over the quotient `i < m` and the remainder `j < n` of the
    position `n·i + j`. -/
theorem sum_fin_mul {M : Type*} [AddCommMonoid M] (m n : ℕ) (g : ℕ → M) :
    ∑ k : Fin (m * n), g k.val = ∑ i : Fin m, ∑ j : Fin n, g (n * i.val + j.val) := by
  rw [← Equiv.sum_comp finProdFinEquiv (fun k : Fin (m * n) => g k.val), Fintype.sum_prod_type]
  refine Finset.sum_congr rfl fun i _ => Finset.sum_congr rfl fun j _ => ?_
  show g (j.val + n * i.val) = g (n * i.val + j.val)
  rw [Nat.add_comm]

/-- A sum over the positions below `N = a·b·c` is the triple sum over blocks, rows and lanes of the row-major position. -/
theorem sum_fin_blocks {M : Type*} [AddCommMonoid M] (a b c N : ℕ) (hN : N = a * b * c) (g : ℕ → M) :
    ∑ k : Fin N, g k.val = ∑ t : Fin a, ∑ r : Fin b, ∑ l : Fin c, g ((b * t.val + r.val) * c + l.val) := by
  subst hN
  rw [sum_fin_mul (a * b) c g, sum_fin_mul a b (fun u => ∑ l : Fin c, g (c * u + l.val))]
  refine Finset.sum_congr rfl fun t _ => Finset.sum_congr rfl fun r _ => Finset.sum_congr rfl fun l _ => ?_
  rw [Nat.mul_comm c]

/-- The indices of a rank-1 array are its coordinates … -/
def idxEquiv1 {n : ℕ} : (⟨1, ![n]⟩ : Shape).Idx ≃ Fin n where
  toFun i := i 0
  invFun k := ix1 k
  left_inv i := (eq_ix1 i).symm
  right_inv _ := rfl

/-- … so a sum over them is the sum over the coordinate. -/
theorem sum_idx1 {M : Type*} [AddCommMonoid M] {n : ℕ} (f : (⟨1, ![n]⟩ : Shape).Idx → M) :
    ∑ i, f i = ∑ k : Fin n, f (ix1 k) := by
  rw [← Equiv.sum_comp (idxEquiv1 (n := n)).symm f]
  rfl

end Cert.Lib.SumBlocks
-- ==== Proof.MapeSpec.lean ====
/-
  The quantity both programs compute, on the extended reals.

  For predictions `a` and labels `b`, arrays of 2^25 extended reals, the relative error at position `k` is
  `|a k − b k| / b k` (the absolute value `max x (−x)`, the quotient the ideal instance's division, whatever it
  gives for a zero or infinite divisor: both programs apply the same function). The result is the sum of the
  relative errors over all positions, divided by the constant whose word is 0x4C000000 (2^25) and multiplied by
  the constant whose word is 0x42C80000 (100); neither constant is ever evaluated.

  The sum over all 2^25 positions equals the sum over 64 blocks of 4096 rows of 128 lanes, the position of
  (block t, row r, lane l) being (4096·t + r)·128 + l: a regrouping of a finite sum in a commutative monoid, which
  needs no finiteness of the terms.
-/
import proofs.«118408_j386547057267_2_alg».proof.Proof.LibSumBlocks
import Idealize.ShloMosaic.PureOps.Ideal.Laws

noncomputable section

open scoped BigOperators

namespace Cert.Mape

open Idealize.ShloMosaic Idealize.ShloMosaic.ValueIdx

/-- The relative error of a prediction `a` against a label `b`. -/
def relErr (a b : EReal) : EReal := Ideal.div (max (a - b) (-(a - b))) b

/-- An array of `n` extended reals read at a natural position (zero past the end, which is never read). -/
def atPos {n : ℕ} (x : (⟨1, ![n]⟩ : Shape).Idx → EReal) (k : ℕ) : EReal :=
  if h : k < n then x (ix1 ⟨k, h⟩) else 0

theorem atPos_val {n : ℕ} (x : (⟨1, ![n]⟩ : Shape).Idx → EReal) (k : Fin n) : atPos x k.val = x (ix1 k) := by
  unfold atPos
  rw [dif_pos k.isLt]

/-- The relative error at position `k` of the two arrays. -/
def errAt {n : ℕ} (a b : (⟨1, ![n]⟩ : Shape).Idx → EReal) (k : ℕ) : EReal := relErr (atPos a k) (atPos b k)

/-- The sum of the relative errors of one block of 4096 rows of 128 lanes: block `t` starts at position 4096·128·t. -/
def blockErr (a b : (⟨1, ![33554432]⟩ : Shape).Idx → EReal) (t : ℕ) : EReal :=
  ∑ r : Fin 4096, ∑ l : Fin 128, errAt a b ((4096 * t + r.val) * 128 + l.val)

/-- The sum of all relative errors. -/
def totalErr (a b : (⟨1, ![33554432]⟩ : Shape).Idx → EReal) : EReal := ∑ k : Fin 33554432, errAt a b k.val

/-- The sum over all positions is the sum of the 64 block sums. -/
theorem totalErr_eq_blocks (a b : (⟨1, ![33554432]⟩ : Shape).Idx → EReal) :
    totalErr a b = ∑ t ∈ Finset.range 64, blockErr a b t := by
  unfold totalErr blockErr
  rw [Cert.Lib.SumBlocks.sum_fin_blocks 64 4096 128 33554432 (by norm_num) (errAt a b), Finset.sum_range]

/-- The mean absolute percentage error as both programs print it: the total over the word 0x4C000000, times the word
    0x42C80000, at the one index of a scalar. -/
def mape (a b : (⟨1, ![33554432]⟩ : Shape).Idx → EReal) : (⟨0, ![]⟩ : Shape).Idx → EReal := fun _ =>
  Ideal.div (totalErr a b) (Ideal.ofBits .f32 0x4C000000#32) * Ideal.ofBits .f32 0x42C80000#32

end Cert.Mape

end
-- ==== Proof.StepValue.lean ====
/-
  One grid step, read at the one index of the 1×1 block: the running value plus the sum, over the 4096 rows and
  the 128 lanes of the two input blocks, of the relative error |x0 − x1| / x1.

  The body sums the lanes of each row (a reduction over the lane axis from a zero that is the addition's
  neutral word, so no initial term appears), views the 4096 row sums as a 4096×1 column, sums that column
  the same way, views the one number as a 1×1 block and adds it to the running value. The casts between a
  shape and itself are the identity, and the casts [4096] → [4096,1] and [1] → [1,1] keep the row-major position.
-/
import proofs.«118408_j386547057267_2_alg».proof.Proof.Gen.KernelIdeal.Skeleton
import proofs.«118408_j386547057267_2_alg».proof.Proof.MapeSpec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx

namespace Cert.KernelIdeal.Mape

open Cert.KernelIdeal Cert.KernelIdeal.Gen Cert.Mape

/-- The zero block the first step stores reads the extended real zero. -/
theorem zero_block_apply (j : S1x1.Idx) : k0_pay1 (F := Ideal) j = 0 := by
  show Ideal.ofBits .f32 0x00000000#32 = 0
  exact Ideal.ofBits_zero_f32

/-- The row index `r` with the lane `l` inserted on the lane axis is `(r, l)`. -/
theorem lift_lane (r : Fin 4096) (l : Fin 128) : reduces_S4096x128_S4096.lift (ix1 r) l = ix2 r l :=
  funext fun a => match a with | ⟨0, _⟩ => Fin.ext rfl | ⟨1, _⟩ => Fin.ext rfl

/-- The step function at the block's index: the running value plus the block's sum of relative errors. -/
theorem step_apply (x0 x1 : FVec Ideal S4096x128 .f32) (acc : FVec Ideal S1x1 .f32) (j : S1x1.Idx) :
    k0_pay2 (F := Ideal) x0 x1 x1 acc j
      = acc j + ∑ r : Fin 4096, ∑ l : Fin 128, relErr (x0 (ix2 r l)) (x1 (ix2 r l)) := by
  unfold k0_pay2
  simp only [shapeCast_self]
  show acc j + _ = acc j + _
  refine congrArg (acc j + ·) ?_
  refine (shapeCast_apply _ shapeCasts_S1_S1x1 j (ix1 (0 : Fin 1)) ?_).trans ?_
  · rw [Shape.rowMajor_val_one, Shape.rowMajor_val_two]
    have h0 := idx2_lt0 j
    have h1 := idx2_lt1 j
    show (0 : ℕ) = (j 0).val * 1 + (j 1).val
    omega
  refine (Ideal.multiReduction_add_single _ 0x00000000#32 reduces_S4096x1_S1 (.inl rfl) rfl (ix1 (0 : Fin 1))).trans ?_
  show ∑ r : Fin 4096, _ = ∑ r : Fin 4096, _
  refine Finset.sum_congr rfl fun r _ => ?_
  refine (shapeCast_apply _ shapeCasts_S4096_S4096x1 _ (ix1 r) ?_).trans ?_
  · rw [Shape.rowMajor_val_one, Shape.rowMajor_val_two]
    show r.val = r.val * 1 + 0
    omega
  refine (Ideal.multiReduction_add_single _ 0x00000000#32 reduces_S4096x128_S4096 (.inl rfl) rfl (ix1 r)).trans ?_
  show ∑ l : Fin 128, _ = ∑ l : Fin 128, _
  refine Finset.sum_congr rfl fun l _ => ?_
  rw [lift_lane]
  rfl

end Cert.KernelIdeal.Mape

end
-- ==== Proof.BlockRead.lean ====
/-
  The two input blocks of grid step `t`, read at row `r` and lane `l`: the flat argument arrays at position
  (4096·t + r)·128 + l.

  Before the region each flat array of 2^25 numbers is viewed as 262144 rows of 128 lanes (a reshape: the same
  row-major position). Step `t`'s block is block `t` along the rows and block 0 along the lanes, so its entry
  (r, l) is the array's entry (4096·t + r, l), whose row-major position is (4096·t + r)·128 + l.
-/
import proofs.«118408_j386547057267_2_alg».proof.Proof.Gen.KernelIdeal.Frame
import proofs.«118408_j386547057267_2_alg».proof.Proof.MapeSpec
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Mape

open Cert.KernelIdeal Cert.KernelIdeal.Gen Cert.Mape

variable (m : (ℓ : Loc nD τ sig) → Buf (Elt Ideal) ℓ)

/-- The predictions as the region finds them: the flat argument viewed as rows of lanes. -/
theorem entry_pred (c : Dev nD) :
    (V m c main_v0 : S262144x128.Idx → EReal)
      = shapeCast S262144x128 (m ((c : Thread nD τ).loc main_arg0)) shapeCasts_S33554432_S262144x128 := by
  show StableHlo.after hostOps0 (fun b => m (c, b)) (Proc.devRef .tc main_v0) = _
  after_results
  rfl

/-- The labels as the region finds them: the flat argument viewed as rows of lanes. -/
theorem entry_label (c : Dev nD) :
    (V m c main_v1 : S262144x128.Idx → EReal)
      = shapeCast S262144x128 (m ((c : Thread nD τ).loc main_arg1)) shapeCasts_S33554432_S262144x128 := by
  show StableHlo.after hostOps0 (fun b => m (c, b)) (Proc.devRef .tc main_v1) = _
  after_results
  rfl

/-- Both input windows take block `t` of the rows and block 0 of the lanes at step `t`. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A reshaped flat array at row `R` and lane `l` is the flat array at position R·128 + l. -/
theorem rows_of_lanes_apply (x : S33554432.Idx → EReal) (i : S262144x128.Idx) (k : ℕ)
    (hk : (i 0).val * 128 + (i 1).val = k) :
    shapeCast S262144x128 x shapeCasts_S33554432_S262144x128 i = atPos x k := by
  subst hk
  have h0 := idx2_lt0 i
  have h1 := idx2_lt1 i
  have hpos : (i 0).val * 128 + (i 1).val < 33554432 := by omega
  unfold atPos
  rw [dif_pos hpos]
  refine shapeCast_apply _ _ _ (ix1 ⟨_, hpos⟩) ?_
  rw [Shape.rowMajor_val_one, Shape.rowMajor_val_two]
  rfl

/-- The prediction block of step `t` at (r, l). -/
theorem pred_block_apply (c : Dev nD) (t : Fin cfg0.N) (r : Fin 4096) (l : Fin 128) :
    (iblk m c 0 t : FVec Ideal S4096x128 .f32) (ix2 r l)
      = atPos (m ((c : Thread nD τ).loc main_arg0)) ((4096 * t.val + r.val) * 128 + l.val) := by
  obtain ⟨e0, e1, -, -⟩ := block_index t
  unfold iblk
  rw [View.read_apply]
  show V m c main_v0 (((cfg0.win 0).blk t).view.emb (ix2 r l)) = _
  rw [entry_pred]
  refine rows_of_lanes_apply _ _ _ ?_
  show (win0_0.index t (0 : Fin 2) * 4096 + 1 * r.val) * 128 + (win0_0.index t (1 : Fin 2) * 128 + 1 * l.val) = _
  rw [e0, e1]
  omega

/-- The label block of step `t` at (r, l). -/
theorem label_block_apply (c : Dev nD) (t : Fin cfg0.N) (r : Fin 4096) (l : Fin 128) :
    (iblk m c 1 t : FVec Ideal S4096x128 .f32) (ix2 r l)
      = atPos (m ((c : Thread nD τ).loc main_arg1)) ((4096 * t.val + r.val) * 128 + l.val) := by
  obtain ⟨-, -, e0, e1⟩ := block_index t
  unfold iblk
  rw [View.read_apply]
  show V m c main_v1 (((cfg0.win 1).blk t).view.emb (ix2 r l)) = _
  rw [entry_label]
  refine rows_of_lanes_apply _ _ _ ?_
  show (win0_1.index t (0 : Fin 2) * 4096 + 1 * r.val) * 128 + (win0_1.index t (1 : Fin 2) * 128 + 1 * l.val) = _
  rw [e0, e1]
  omega

end Cert.KernelIdeal.Mape

end
-- ==== Proof.Running.lean ====
/-
  What the 1×1 output block holds after grid step `n`: the sum of the block sums of steps 0 … n.

  By induction on the step. The first step stores zero and adds its block sum; each later step adds its block sum to
  what the step before left. Each block sum, read through the step's two input blocks, is the sum of the relative
  errors at the block's positions of the flat argument arrays.
-/
import proofs.«118408_j386547057267_2_alg».proof.Proof.KernelCases
import proofs.«118408_j386547057267_2_alg».proof.Proof.StepValue
import proofs.«118408_j386547057267_2_alg».proof.Proof.BlockRead

noncomputable section

open scoped BigOperators
open Idealize.ShloMosaic Idealize.ShloMosaic.TcCoe Idealize.SL.Sem Idealize.ShloMosaic.ValueIdx

namespace Cert.KernelIdeal.Mape

open Cert.KernelIdeal Cert.KernelIdeal.Gen Cert.Mape

variable (m : (ℓ : Loc nD τ sig) → Buf (Elt Ideal) ℓ)

/-- The sum of relative errors over the two input blocks of step `t` is block `t`'s sum over the flat arrays. -/
theorem block_sum (c : Dev nD) (t : Fin cfg0.N) :
    ∑ r : Fin 4096, ∑ l : Fin 128,
        relErr ((iblk m c 0 t : FVec Ideal S4096x128 .f32) (ix2 r l)) ((iblk m c 1 t : FVec Ideal S4096x128 .f32) (ix2 r l))
      = blockErr (m ((c : Thread nD τ).loc main_arg0)) (m ((c : Thread nD τ).loc main_arg1)) t.val := by
  unfold blockErr errAt
  refine Finset.sum_congr rfl fun r _ => Finset.sum_congr rfl fun l _ => ?_
  rw [pred_block_apply m c t r l, label_block_apply m c t r l]

/-- After step `n` the output block holds, at its one index, the sum of the block sums of steps 0 … n. -/
theorem running (c : Dev nD) : ∀ (n : ℕ) (h : n < cfg0.N) (j : S1x1.Idx),
    outsAt0 m c n h j
      = ∑ s ∈ Finset.range (n + 1), blockErr (m ((c : Thread nD τ).loc main_arg0)) (m ((c : Thread nD τ).loc main_arg1)) s
  | 0, h, j => by
    have e : outsAt0 m c 0 h
        = k0_pay2 (iblk m c 0 ⟨0, h⟩) (iblk m c 1 ⟨0, h⟩) (iblk m c 1 ⟨0, h⟩) (k0_pay1 (F := Ideal)) :=
      (outsAt0_A m c ⟨0, h⟩ rfl).trans
        (first_step c (grid0.coords ⟨0, h⟩) (ms0_0 ⟨0, h⟩) (hs0_0 ⟨0, h⟩) (ms0_1 ⟨0, h⟩) (hs0_1 ⟨0, h⟩) (ms0_2 ⟨0, h⟩)
          (hs0_2 ⟨0, h⟩) ((hcond0_0 ⟨0, h⟩).mpr rfl) (iblk m c 0 ⟨0, h⟩) (iblk m c 1 ⟨0, h⟩))
    rw [e]
    refine (step_apply (iblk m c 0 ⟨0, h⟩) (iblk m c 1 ⟨0, h⟩) (k0_pay1 (F := Ideal)) j).trans ?_
    rw [zero_block_apply, zero_add, block_sum m c ⟨0, h⟩, Finset.sum_range_one]
  | n + 1, h, j => by
    have hN : cfg0.N = 64 := N_0
    have hB : ¬(⟨n + 1, h⟩ : Fin cfg0.N).val % 64 = 0 := by dsimp only; omega
    have e : outsAt0 m c (n + 1) h
        = k0_pay2 (iblk m c 0 ⟨n + 1, h⟩) (iblk m c 1 ⟨n + 1, h⟩) (iblk m c 1 ⟨n + 1, h⟩)
            (outsAt0 m c n (Nat.lt_of_succ_lt h)) :=
      (outsAt0_B m c ⟨n + 1, h⟩ hB).trans
        (later_step c (grid0.coords ⟨n + 1, h⟩) (ms0_0 ⟨n + 1, h⟩) (hs0_0 ⟨n + 1, h⟩) (ms0_1 ⟨n + 1, h⟩) (hs0_1 ⟨n + 1, h⟩)
          (ms0_2 ⟨n + 1, h⟩) (hs0_2 ⟨n + 1, h⟩) (fun hh => hB ((hcond0_0 ⟨n + 1, h⟩).mp hh)) (iblk m c 0 ⟨n + 1, h⟩)
          (iblk m c 1 ⟨n + 1, h⟩) (outsAt0 m c n (Nat.lt_of_succ_lt h)))
    rw [e]
    refine (step_apply (iblk m c 0 ⟨n + 1, h⟩) (iblk m c 1 ⟨n + 1, h⟩) (outsAt0 m c n (Nat.lt_of_succ_lt h)) j).trans ?_
    rw [running c n (Nat.lt_of_succ_lt h) j, block_sum m c ⟨n + 1, h⟩, Finset.sum_range_succ _ (n + 1)]

end Cert.KernelIdeal.Mape

end
-- ==== Proof.KernelResult.lean ====
/-
  The idealized kernel's result: the mean absolute percentage error of the two flat argument arrays.

  The output window's block index never moves and the block is written back after the last step only, so the 1×1
  result array ends holding what step 63 leaves: the sum of all 64 block sums, which is the sum of the relative
  errors over all 2^25 positions. The host lines after the region view that 1×1 array as a scalar, divide it by the
  constant 0x4C000000 and multiply by the constant 0x42C80000.
-/
import proofs.«118408_j386547057267_2_alg».proof.Proof.Running

noncomputable section

open scoped BigOperators
open Idealize.ShloMosaic Idealize.ShloMosaic.TcCoe Idealize.SL.Sem Idealize.ShloMosaic.ValueIdx
open Idealize.ShloMosaic.Pipeline (Dat)

namespace Cert.KernelIdeal.Mape

open Cert.KernelIdeal Cert.KernelIdeal.Gen Cert.Mape

variable (m : (ℓ : Loc nD τ sig) → Buf (Elt Ideal) ℓ) (ρ : Dev nD → PrngReg)

/-- The last grid step. -/
def lastStep : Fin cfg0.N := ⟨63, by rw [show cfg0.N = 64 from N_0]; decide⟩

/-- What the last step leaves in the output block, as contents of the 1×1 result array. -/
def lastBlock (c : Dev nD) : Buf (Elt Ideal) ((c : Thread nD τ).loc main_v2) := outsAt0 m c lastStep.val lastStep.isLt

/-- It holds the sum of all relative errors. -/
theorem lastBlock_apply (c : Dev nD) (j : S1x1.Idx) :
    lastBlock m c j = totalErr (m ((c : Thread nD τ).loc main_arg0)) (m ((c : Thread nD τ).loc main_arg1)) := by
  rw [totalErr_eq_blocks]
  exact running m c 63 lastStep.isLt j

/-- At every step the output window sits on block (0, 0) of the 1×1 array, and that block has extent 1 on both axes. -/
theorem out_window : ∀ t : Fin cfg0.N,
    win0_2.index t (0 : Fin 2) = 0 ∧ win0_2.index t (1 : Fin 2) = 0
    ∧ win0_2.xsize (grid0.coords t) (0 : Fin 2) = 1 ∧ win0_2.xsize (grid0.coords t) (1 : Fin 2) = 1 :=
  (by decide +kernel : ∀ t : Fin grid0.N, _)

/-- So its block starts at offset zero on both axes. -/
theorem out_offsets_zero (t : Fin cfg0.N) : (fun a => win0_2.index t a * main_v2.ty.shape.size a) = fun _ => 0 := by
  obtain ⟨e0, e1, -, -⟩ := out_window t
  funext a
  match a with
  | ⟨0, _⟩ => show win0_2.index t (0 : Fin 2) * _ = 0; rw [e0, Nat.zero_mul]
  | ⟨1, _⟩ => show win0_2.index t (1 : Fin 2) * _ = 0; rw [e1, Nat.zero_mul]

/-- The only step that writes the block back is the last one. -/
theorem flush_last (t : Fin cfg0.N) (hf : (cfg0.win 2).flush t = true) : t = lastStep := by
  have hN : cfg0.N = 64 := N_0
  have h63 := (flush0_2 t).mp hf
  have hlt := t.isLt
  exact Fin.ext (show t.val = 63 by omega)

/-- That write-back writes the whole 1×1 array: its block read through zero offsets is the array itself. -/
theorem flushed_eq (c : Dev nD) (t : Fin cfg0.N) (hf : (cfg0.win 2).flush t = true) :
    (dats m 0 c).flushed 2 t = ((cfg0.win 2).blk t).view.read (Elt Ideal) (lastBlock m c) := by
  obtain rfl := flush_last t hf
  show (cfg0.win 2).cut (grid0.coords lastStep) ((dats m 0 c).after 2 lastStep) = _
  rw [after0_2]
  have hz := out_offsets_zero lastStep
  exact (Memref.read_access_unit_zero (Elt Ideal) main_v2 hz (fun a => by rw [congrFun hz a]; simp) (lastBlock m c)).symm

/-- Each of the 1×1 array's indices lies in the last step's block. -/
theorem mem_last_block (i : S1x1.Idx) : i ∈ ((cfg0.win 2).blk lastStep).view.set := by
  obtain ⟨e0, e1, x0, x1⟩ := out_window lastStep
  show i ∈ ((View.whole main_v2).slice (win0_2.rect lastStep)).set
  rw [View.set_slice_whole, Rect.mem_set_unit]
  have h0 := idx2_lt0 i
  have h1 := idx2_lt1 i
  intro a
  match a with
  | ⟨0, _⟩ =>
    show win0_2.index lastStep (0 : Fin 2) * win0_2.size (0 : Fin 2) ≤ (i 0).val
      ∧ (i 0).val < win0_2.index lastStep (0 : Fin 2) * win0_2.size (0 : Fin 2) + win0_2.xsize (grid0.coords lastStep) (0 : Fin 2)
    rw [e0, x0]; omega
  | ⟨1, _⟩ =>
    show win0_2.index lastStep (1 : Fin 2) * win0_2.size (1 : Fin 2) ≤ (i 1).val
      ∧ (i 1).val < win0_2.index lastStep (1 : Fin 2) * win0_2.size (1 : Fin 2) + win0_2.xsize (grid0.coords lastStep) (1 : Fin 2)
    rw [e1, x1]; omega

/-- So the 1×1 result array ends holding what the last step left. -/
theorem final_block (c : Dev nD) : (dats m 0 c).arrAt 2 cfg0.N = lastBlock m c :=
  (dats m 0 c).arrAt_eq_of_cover 2 (lastBlock m c) (flushed_eq m c) fun i =>
    ⟨lastStep, (flush0_2 lastStep).mpr rfl, mem_last_block i⟩

/-- The host lines after the region, applied to the 1×1 result array. -/
theorem tail_eq (c : Dev nD) :
    Pipeline.afterTail₀ cfgs (dats m) 0 (V0 m) [hostOps1] c main_v5
      = mulf (Host.divf (F := Ideal) (shapeCast S_ (lastBlock m c) shapeCasts_S1x1_S_) (constant (F := Ideal) S_ .f32 0x4C000000#32))
          (constant (F := Ideal) S_ .f32 0x42C80000#32) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v2)
      = lastBlock m c :=
    (Pipeline.withArrays_arr spec0 launch0.win.arr_inj c _ _ 2).trans (final_block m c)
  rw [e]
  rfl

/-- The result at the scalar's one index: the specification. -/
theorem result_eq (c : Dev nD) :
    Pipeline.afterTail₀ cfgs (dats m) 0 (V0 m) [hostOps1] c main_v5
      = mape (m ((c : Thread nD τ).loc main_arg0)) (m ((c : Thread nD τ).loc main_arg1)) := by
  rw [tail_eq]
  funext i
  show Ideal.div (shapeCast S_ (lastBlock m c) shapeCasts_S1x1_S_ i) (Ideal.ofBits .f32 0x4C000000#32) * Ideal.ofBits .f32 0x42C80000#32 = _
  unfold shapeCast
  rw [lastBlock_apply]
  rfl

/-- The idealized kernel's run, read: the result at the specification of the argument arrays, the arguments unchanged. -/
theorem run : θ_run defs (onTc (τ := τ) (main (F := Ideal))) ⟨m, fun _ => 0, ρ⟩ fun r => ∀ c : Dev nD,
      r.2.mem ((c.tc : Thread nD τ).loc main_v5)
        = mape (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Mape

end
-- ==== Proof.RefSum.lean ====
/-
  The reference's result is the mean absolute percentage error of its two arguments.

  The reference computes the relative error |a j − b j| / b j at every position, sums all of them from an initial
  zero, divides by the constant 0x4C000000 and multiplies by the constant 0x42C80000. Its absolute value and quotient
  are, on the extended reals, the same functions the kernel applies; the initial zero is the extended real zero.
-/
import proofs.«118408_j386547057267_2_alg».proof.Defs
import proofs.«118408_j386547057267_2_alg».proof.Proof.Gen.ReferenceIdeal.Read
import proofs.«118408_j386547057267_2_alg».proof.Proof.MapeSpec
import Idealize.ShloMosaic.Lib.ValueIdx
import Idealize.ShloMosaic.PureOps.Ideal.Laws

noncomputable section

open scoped BigOperators
open Idealize.ShloMosaic Idealize.SL.Sem Idealize.ShloMosaic.ValueIdx

namespace Cert.ReferenceIdeal.Mape

open Cert.ReferenceIdeal Cert.ReferenceIdeal.Read Cert.Mape

/-- The reference's last stage, as a function of the two arguments, is the specification. -/
theorem ref_value (x0 x1 : (⟨S33554432, .f32⟩ : BufTy).Contents (Elt Ideal)) :
    val_main_v5 (F := Ideal) x0 x1 = mape x0 x1 := by
  funext i
  rw [val_main_v5_apply, val_main_v4_apply, val_main_v3_apply, val_main_cst_apply, val_main_cst_0_apply,
    val_main_cst_1_apply]
  simp only [Ideal.mulf_def, Ideal.hostDivf_def, Ideal.ofBits_def, Ideal.ofBits_zero_f32, zero_add]
  unfold mape totalErr
  rw [Cert.Lib.SumBlocks.sum_idx1]
  refine congrArg (fun s => Ideal.div s (Ideal.ofBits .f32 0x4C000000#32) * Ideal.ofBits .f32 0x42C80000#32) ?_
  refine Finset.sum_congr rfl fun k _ => ?_
  rw [val_main_v2_apply, val_main_v1_apply, val_main_v0_apply]
  unfold errAt
  rw [atPos_val, atPos_val]
  rfl

end Cert.ReferenceIdeal.Mape

end
-- ==== Proof.lean ====
/-
  The mean absolute percentage error of 2^25 predictions against 2^25 labels: a Pallas kernel that accumulates
  64 block sums into a 1×1 block, against `mean(|p − l| / l) · 100` on the host.

  On the extended reals both programs end at the same number: the sum over all 2^25 positions of the relative error
  |p k − l k| / l k, divided by the constant 0x4C000000 and multiplied by the constant 0x42C80000 (`Cert.Mape.mape`).
  The reference sums all positions at once from an initial zero. The kernel views each array as 262144 rows of 128
  lanes, and at grid step t adds to a running value (zero at step 0) the sum over the 4096 rows and 128 lanes of block
  t; the block written back after step 63 is the sum of the 64 block sums, and position (4096·t + r)·128 + l runs over
  every position exactly once. The two sums differ only by the grouping of a finite sum and by added zeros, and the
  extended reals are a commutative monoid under addition, so they are equal whatever the terms are — also when a
  label is zero or a term is infinite: the precondition (finite inputs) is not used. The two programs apply the same
  host division and multiplication to that sum. The idealized kernel is the kernel's own text read on the extended reals, no operation rewritten, so the idealization claim is trivial;
  the three frame claims are the programs' runs with the results dropped.
-/
import proofs.«118408_j386547057267_2_alg».proof.Defs
import proofs.«118408_j386547057267_2_alg».proof.Proof.Gen.Kernel
import proofs.«118408_j386547057267_2_alg».proof.Proof.Gen.Kernel.Skeleton
import proofs.«118408_j386547057267_2_alg».proof.Proof.Gen.Kernel.Launch
import proofs.«118408_j386547057267_2_alg».proof.Proof.Gen.Kernel.Points
import proofs.«118408_j386547057267_2_alg».proof.Proof.Gen.Kernel.Frame
import proofs.«118408_j386547057267_2_alg».proof.Proof.Gen.KernelIdeal
import proofs.«118408_j386547057267_2_alg».proof.Proof.Gen.KernelIdeal.Skeleton
import proofs.«118408_j386547057267_2_alg».proof.Proof.Gen.KernelIdeal.Launch
import proofs.«118408_j386547057267_2_alg».proof.Proof.Gen.KernelIdeal.Points
import proofs.«118408_j386547057267_2_alg».proof.Proof.Gen.KernelIdeal.Frame
import proofs.«118408_j386547057267_2_alg».proof.Proof.Gen.ReferenceIdeal
import proofs.«118408_j386547057267_2_alg».proof.Proof.Gen.ReferenceIdeal.Run
import proofs.«118408_j386547057267_2_alg».proof.Proof.Gen.ReferenceIdeal.Read
import proofs.«118408_j386547057267_2_alg».proof.Proof.Gen.Pre_finite_inputs
import proofs.«118408_j386547057267_2_alg».proof.Proof.KernelResult
import proofs.«118408_j386547057267_2_alg».proof.Proof.RefSum
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization: nothing to show. -/
theorem preserves : Cert.preserves_Kernel_KernelIdeal := trivial

/-- From memories that agree on the two arguments both programs end at `Cert.Mape.mape` of those arguments. -/
theorem algebraic : Cert.algebraic_KernelIdeal_ReferenceIdeal := by
  intro m ρ m' ρ' _ hagree
  refine ⟨fun c => Cert.Mape.mape (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Mape.run m ρ, ?_⟩
  refine (θ_run Cert.ReferenceIdeal.defs _ _).mono (fun _ h c => ⟨?_, (h c).2⟩)
    (Cert.ReferenceIdeal.Value.run (F := Ideal) m' ρ')
  refine ((h c).1.trans ((Cert.ReferenceIdeal.Read.val_main_v5_eq _ _).trans (Cert.ReferenceIdeal.Mape.ref_value _ _))).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
